-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x10000x128 : Shape := ⟨3, ![1, 10000, 128]⟩
abbrev S400x10000 : Shape := ⟨2, ![400, 10000]⟩
abbrev S1x400x128 : Shape := ⟨3, ![1, 400, 128]⟩
abbrev S1x128 : Shape := ⟨2, ![1, 128]⟩
abbrev S400x128 : Shape := ⟨2, ![400, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128, .f32⟩
  | .local _ .vmem, ⟨5, _⟩ => ⟨S128x128, .f32⟩
  | .local _ .vmem, ⟨6, _⟩ => ⟨S128, .f32⟩
  | .local _ .vmem, ⟨7, _⟩ => ⟨S1x400x128, .f32⟩
  | .local _ .vmem, ⟨8, _⟩ => ⟨S1x400x128, .f32⟩
  | .local _ .vmem, ⟨9, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  shapeCasts_S400x128_S1x400x128 : S400x128.ShapeCasts S1x400x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x128.size a ≤ S1x10000x128.size a
  hwx0_6 : ∀ i : grid0.Coords, EltTy.bits .f32 = 32 ∨ (Rect.block (s := S1x10000x128) S1x400x128.size (cc0_transform_6 i) (hinb0_6 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x10000x128 : Shape := ⟨3, ![1, 10000, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S1x10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10000x128_S1x10000x128_1_2 : S10000x128.BroadcastsInDim S1x10000x128 (![1, 2] : Fin 2 → Fin S1x10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values.

  The body keeps a hidden-layer product in a scratch buffer: at the grid's first point it computes
  `relu(AX · Wrᵀ + b_r) · Wᵀ` from the four small operands and stores it whole; at every point it multiplies
  its row block of `A` by whatever the scratch holds, adds the output bias and clamps at zero.  The three
  lemmas below say exactly that, for any float instance: the scratch after the first point's body, the
  output block after the first point's body (which reads back what it has just stored), and the output
  block after any later point's body (which reads what the point before left).
-/
import proofs.«149412_g77833397338523_cont_9to1c4b_560_19_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GcnPieces

open Cert.KernelIdeal Cert.KernelIdeal.Gen

variable {F : FTy → Type} [FloatOps F]

/-- A whole-buffer access starts at the origin, in every rank that occurs. -/
theorem origin1 : (![0] : Fin 1 → Nat) = fun _ => 0 := funext fun a => by fin_cases a <;> rfl
theorem origin2 : (![0, 0] : Fin 2 → Nat) = fun _ => 0 := funext fun a => by fin_cases a <;> rfl
theorem origin3 : (![0, 0, 0] : Fin 3 → Nat) = fun _ => 0 := funext fun a => by fin_cases a <;> rfl

/-- After the first point's body the scratch holds the hidden-layer product of the four small operands:
    its one store covers the buffer, and the store's value is that product of the buffers' whole contents. -/
theorem scratch_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S1x400x128 .f32) (h7 : a7.IsWhole) (a8 : Memref sig .tc .vmem S10000x128 .f32) (h8 : a8.IsWhole) (hc : cond0_0 i)
    (x0 : Vec F S400x10000 .f32) (x1 : Vec F S10000x128 .f32) (x2 : Vec F S128x128 .f32) (x3 : Vec F S128 .f32) (x4 : Vec F S128x128 .f32) (x5 : Vec F S128 .f32) :
    sout0_A_0 c i a1 h1 a2 h2 a3 h3 a4 h4 a5 h5 a6 h6 a7 h7 a8 h8 hc x0 x1 x2 x3 x4 x5 = k0_pay1 x1 x2 x3 x4 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero origin2]
  simp only [View.readAt_eq_ld, h2.read_unread, h3.read_unread, h4.read_unread, h5.read_unread,
    View.ld_unit_zero (S := S10000x128) origin2, View.ld_unit_zero (S := S128x128) origin2, View.ld_unit_zero (S := S128) origin1]

/-- After the first point's body the output block is the row block of `A` times the product just stored
    (read back through the store that covers the scratch), plus the bias, clamped at zero. -/
theorem out_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S1x400x128 .f32) (h7 : a7.IsWhole) (a8 : Memref sig .tc .vmem S10000x128 .f32) (h8 : a8.IsWhole) (hc : cond0_0 i)
    (x0 : Vec F S400x10000 .f32) (x1 : Vec F S10000x128 .f32) (x2 : Vec F S128x128 .f32) (x3 : Vec F S128 .f32) (x4 : Vec F S128x128 .f32) (x5 : Vec F S128 .f32) :
    out0_A_6 c i a1 h1 a2 h2 a3 h3 a4 h4 a5 h5 a6 h6 a7 h7 a8 h8 hc x0 x1 x2 x3 x4 x5 = k0_pay2 x0 (k0_pay1 x1 x2 x3 x4) x5 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero origin3, View.readCov_unit_zero (S := S10000x128) _ origin2]
  simp only [View.readAt_eq_ld, h1.read_unread, h2.read_unread, h3.read_unread, h4.read_unread, h5.read_unread, h6.read_unread,
    View.ld_unit_zero (S := S400x10000) origin2, View.ld_unit_zero (S := S10000x128) origin2, View.ld_unit_zero (S := S128x128) origin2,
    View.ld_unit_zero (S := S128) origin1]

/-- After a later point's body the output block is the row block of `A` times what the scratch held on entry,
    plus the bias, clamped at zero; the scratch is not written. -/
theorem out_later (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S1x400x128 .f32) (h7 : a7.IsWhole) (a8 : Memref sig .tc .vmem S10000x128 .f32) (h8 : a8.IsWhole) (hc : ¬cond0_0 i)
    (x0 : Vec F S400x10000 .f32) (x1 : Vec F S10000x128 .f32) (x2 : Vec F S128x128 .f32) (x3 : Vec F S128 .f32) (x4 : Vec F S128x128 .f32) (x5 : Vec F S128 .f32) (xs : Vec F S10000x128 .f32) :
    out0_B_6 c i a1 h1 a2 h2 a3 h3 a4 h4 a5 h5 a6 h6 a7 h7 a8 h8 hc x0 x1 x2 x3 x4 x5 xs = k0_pay2 x0 xs x5 := by
  unfold out0_B_6
  rw [View.read_writes_eq_canon _ _ _ (cover0_B_6 c i a1 h1 a2 h2 a3 h3 a4 h4 a5 h5 a6 h6 a7 h7 a8 h8 hc x0 x1 x2 x3 x4 x5 xs)]
  unfold kernelRun0_B
  dsimp only
  rw [View.canon_unit_zero origin3]
  simp only [View.readAt_eq_ld, h1.read_unread, h6.read_unread, h8.read_unread,
    View.ld_unit_zero (S := S400x10000) origin2, View.ld_unit_zero (S := S10000x128) origin2, View.ld_unit_zero (S := S128) origin1]

end Cert.GcnPieces

end
-- ==== Proof.Sweep.lean ====
/-
  The sweep over the grid.

  The scratch is written once, at the first point, and only read afterwards; so after EVERY point it holds
  the same thing, the hidden-layer product of the four small operands as the first point found them
  (`hidden`), by induction on the point.  Hence at every point — the first, which has just stored it, and the
  later ones, which inherit it — the output block is the point's row block of `A` times `hidden`, plus the
  bias, clamped at zero.
-/
import proofs.«149412_g77833397338523_cont_9to1c4b_560_19_alg».proof.Proof.Pieces

noncomputable section

open Idealize.ShloMosaic Idealize.ShloMosaic.TcCoe Idealize.SL.Sem

namespace Cert.GcnSweep

open Cert.KernelIdeal Cert.KernelIdeal.Gen

variable {F : FTy → Type} [FloatOps F]
variable (m : (ℓ : Loc nD τ sig) → Buf (Elt F) ℓ)

/-- The grid's first point. -/
abbrev first : Fin cfg0.N := ⟨0, by rw [show cfg0.N = 25 from N_0]; decide⟩

/-- The hidden-layer product the first point stores: of the blocks of the four small operands at that point. -/
def hidden (c : Dev nD) : Vec F S10000x128 .f32 :=
  k0_pay1 (iblk m c 1 first) (iblk m c 2 first) (iblk m c 3 first) (iblk m c 4 first)

/-- After every point the scratch holds `hidden`: the first point stores it, no later point writes the scratch. -/
theorem scratch_after (c : Dev nD) : ∀ (n : ℕ) (h : n < cfg0.N), (outsAt0 m c n h).2 = hidden m c
  | 0, h => by
    unfold hidden
    rw [outsAt0_A m c ⟨0, h⟩ rfl]
    dsimp only
    exact Cert.GcnPieces.scratch_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) scM0_0 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N))
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = _
    exact scratch_after c n _

/-- At every point the output block is the point's row block of `A` against `hidden`, with the point's bias block. -/
theorem out_at (c : Dev nD) (t : Fin cfg0.N) :
    (outsAt0 m c t.val t.isLt).1 = k0_pay2 (iblk m c 0 t) (hidden m c) (iblk m c 5 t) := by
  have hN : cfg0.N = 25 := N_0
  by_cases h0 : t.val % 25 = 0
  · have ht : t = first := Fin.ext (by have := t.isLt; show t.val = 0; omega)
    subst ht
    unfold hidden
    rw [outsAt0_A m c first h0]
    dsimp only
    exact Cert.GcnPieces.out_first c (grid0.coords first) (ms0_0 first) (hs0_0 first) (ms0_1 first) (hs0_1 first) (ms0_2 first) (hs0_2 first) (ms0_3 first) (hs0_3 first) (ms0_4 first) (hs0_4 first) (ms0_5 first) (hs0_5 first) (ms0_6 first) (hs0_6 first) scM0_0 (Memref.isWhole_whole _) ((hcond0_0 first).mpr h0) (iblk m c 0 first) (iblk m c 1 first) (iblk m c 2 first) (iblk m c 3 first) (iblk m c 4 first) (iblk m c 5 first)
  · rw [outsAt0_B m c t h0]
    dsimp only
    rw [scratch_after m c (t.val - 1) (Nat.lt_of_le_of_lt (Nat.sub_le _ _) t.isLt)]
    exact Cert.GcnPieces.out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (hidden m c)

end Cert.GcnSweep

end
-- ==== Proof.Law.lean ====
/-
  The one algebraic law that joins the two programs.

  A product of three matrices may be bracketed either way: entry by entry,
      Σₖ aₖ · (Σⱼ rₖⱼ · wⱼ)  =  Σⱼ (Σₖ aₖ · rₖⱼ) · wⱼ .
  Over the extended reals this is false in general (it moves a factor across a sum, which fails at the
  infinities), so it is stated for entries that are real numbers and proved in ℝ: distribute, swap the
  two finite sums, re-associate each term.  Two small facts carry a real computation into the extended
  reals: the embedding commutes with finite sums and with the maximum against zero.
-/
import Mathlib.Data.EReal.Inv
import Mathlib.Algebra.BigOperators.Ring.Finset

namespace Cert.GcnLaw

/-- The embedding of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with the maximum against zero (it is monotone). -/
theorem coe_max_zero (x : ℝ) : max (x : EReal) 0 = ((max x 0 : ℝ) : EReal) := by
  rw [EReal.coe_strictMono.monotone.map_max, EReal.coe_zero]

/-- Re-bracketing a triple product, entry by entry, in ℝ. -/
theorem assoc_real {K J : Type*} [Fintype K] [Fintype J] (a : K → ℝ) (r : K → J → ℝ) (w : J → ℝ) :
    ∑ k, a k * ∑ j, r k j * w j = ∑ j, (∑ k, a k * r k j) * w j := by
  simp only [Finset.mul_sum, Finset.sum_mul]
  rw [Finset.sum_comm]
  exact Finset.sum_congr rfl fun j _ => Finset.sum_congr rfl fun k _ => (mul_assoc _ _ _).symm

/-- The same for extended reals that are real numbers. -/
theorem assoc_coe {K J : Type*} [Fintype K] [Fintype J] (a : K → ℝ) (r : K → J → ℝ) (w : J → ℝ) :
    ∑ k, (a k : EReal) * ∑ j, (r k j : EReal) * (w j : EReal)
      = ∑ j, (∑ k, (a k : EReal) * (r k j : EReal)) * (w j : EReal) := by
  have hl : ∑ k, (a k : EReal) * ∑ j, (r k j : EReal) * (w j : EReal) = ((∑ k, a k * ∑ j, r k j * w j : ℝ) : EReal) := by
    rw [coe_sum]
    refine Finset.sum_congr rfl fun k _ => ?_
    rw [EReal.coe_mul, coe_sum]
    refine congrArg _ (Finset.sum_congr rfl fun j _ => ?_)
    rw [EReal.coe_mul]
  have hr : ∑ j, (∑ k, (a k : EReal) * (r k j : EReal)) * (w j : EReal) = ((∑ j, (∑ k, a k * r k j) * w j : ℝ) : EReal) := by
    rw [coe_sum]
    refine Finset.sum_congr rfl fun j _ => ?_
    rw [EReal.coe_mul, coe_sum]
    refine congrArg (· * (w j : EReal)) (Finset.sum_congr rfl fun k _ => ?_)
    rw [EReal.coe_mul]
  rw [hl, hr, assoc_real]

end Cert.GcnLaw
-- ==== Proof.Spec.lean ====
/-
  What the two programs compute, entry by entry, and why it is the same number.

  Write  r[k,j] = max(Σ_d AX[k,d]·Wr[j,d] + b_r[j], 0)  for the hidden activation (10000 × 128).
  The kernel first forms  h2[k,c] = Σ_j r[k,j]·W[c,j]  and then, row block by row block,
      out[p,c] = max(Σ_k A[p,k]·h2[k,c] + b[c], 0);
  the reference forms  t[p,j] = Σ_k A[p,k]·r[k,j]  and then
      out[p,c] = max(Σ_j t[p,j]·W[c,j] + b[c], 0).
  These are the two bracketings of the triple product A·r·Wᵀ.  When the entries of A, AX, Wr, b_r and W are
  real numbers so is every r[k,j] (a finite sum of products of reals, plus a real, clamped at zero), and the two
  sums agree by the re-bracketing law; the output bias b is added to equal numbers and may be anything.
-/
import Idealize.ShloMosaic.PureOps.Ideal
import Idealize.ShloMosaic.Lib.ValueIdx
import proofs.«149412_g77833397338523_cont_9to1c4b_560_19_alg».proof.Proof.Law

noncomputable section

namespace Cert.GcnSpec

open Idealize.ShloMosaic Idealize.ShloMosaic.ValueIdx

/-- A matrix and a vector of extended reals, of literal extents. -/
abbrev Mat (a b : ℕ) : Type := (⟨2, ![a, b]⟩ : Shape).Idx → EReal
abbrev Row (a : ℕ) : Type := (⟨1, ![a]⟩ : Shape).Idx → EReal

/-- Every entry of an array is a real number. -/
def AllReal {S : Shape} (x : S.Idx → EReal) : Prop := ∀ i, ∃ r : ℝ, x i = (r : EReal)

/-- The hidden activation `r[k,j]`. -/
def act (AX : Mat 10000 128) (Wr : Mat 128 128) (br : Row 128) (k : Fin 10000) (j : Fin 128) : EReal :=
  max ((∑ d : Fin 128, AX (ix2 k d) * Wr (ix2 j d)) + br (ix1 j)) 0

/-- The kernel's folded factor `h2[k,c]`. -/
def folded (AX : Mat 10000 128) (Wr : Mat 128 128) (br : Row 128) (W : Mat 128 128) (k : Fin 10000) (c : Fin 128) : EReal :=
  ∑ j : Fin 128, act AX Wr br k j * W (ix2 c j)

/-- The kernel's entry: A against the folded factor. -/
def outFolded (A : Mat 10000 10000) (AX : Mat 10000 128) (Wr : Mat 128 128) (br : Row 128) (W : Mat 128 128) (b : Row 128)
    (p : Fin 10000) (c : Fin 128) : EReal :=
  max ((∑ k : Fin 10000, A (ix2 p k) * folded AX Wr br W k c) + b (ix1 c)) 0

/-- The reference's entry: (A against the activation) against W. -/
def outLayered (A : Mat 10000 10000) (AX : Mat 10000 128) (Wr : Mat 128 128) (br : Row 128) (W : Mat 128 128) (b : Row 128)
    (p : Fin 10000) (c : Fin 128) : EReal :=
  max ((∑ j : Fin 128, (∑ k : Fin 10000, A (ix2 p k) * act AX Wr br k j) * W (ix2 c j)) + b (ix1 c)) 0

/-- The activation of real arrays is real: the real computation, embedded. -/
theorem act_real {AX : Mat 10000 128} {Wr : Mat 128 128} {br : Row 128}
    (hAX : AllReal AX) (hWr : AllReal Wr) (hbr : AllReal br) (k : Fin 10000) (j : Fin 128) :
    ∃ r : ℝ, act AX Wr br k j = (r : EReal) := by
  choose ax hax using hAX
  choose wr hwr using hWr
  choose b' hb' using hbr
  refine ⟨max ((∑ d : Fin 128, ax (ix2 k d) * wr (ix2 j d)) + b' (ix1 j)) 0, ?_⟩
  unfold act
  rw [← Cert.GcnLaw.coe_max_zero, EReal.coe_add, Cert.GcnLaw.coe_sum, hb']
  refine congrArg (fun s => max (s + (b' (ix1 j) : EReal)) 0) (Finset.sum_congr rfl fun d _ => ?_)
  rw [hax, hwr, EReal.coe_mul]

/-- THE BRIDGE: for real A, AX, Wr, b_r and W the two bracketings give the same entry. -/
theorem outFolded_eq_outLayered {A : Mat 10000 10000} {AX : Mat 10000 128} {Wr : Mat 128 128} {br : Row 128} {W : Mat 128 128}
    (b : Row 128) (hA : AllReal A) (hAX : AllReal AX) (hWr : AllReal Wr) (hbr : AllReal br) (hW : AllReal W)
    (p : Fin 10000) (c : Fin 128) :
    outFolded A AX Wr br W b p c = outLayered A AX Wr br W b p c := by
  choose a ha using hA
  choose w hw using hW
  choose r hr using fun k j => act_real hAX hWr hbr k j
  unfold outFolded outLayered folded
  refine congrArg (fun s => max (s + b (ix1 c)) 0) ?_
  simp only [ha, hw, hr]
  exact Cert.GcnLaw.assoc_coe (fun k => a (ix2 p k)) r (fun j => w (ix2 c j))

end Cert.GcnSpec

end
-- ==== Proof.Payload.lean ====
/-
  The body's two stored values, read at an index over the extended reals.

  The first (stored into the scratch at the grid's first point) is the folded factor
      h2[k,c] = Σ_j max(Σ_d x1[k,d]·x2[j,d] + x3[j], 0) · x4[c,j]
  — two matrix products that contract the SECOND axis of both operands (x·wᵀ), a bias row broadcast down the
  rows, a clamp at zero.  The second (stored into the output block at every point) is
      out[0,p,c] = max(Σ_k x0[p,k]·xs[k,c] + x5[c], 0)
  — one plain matrix product of the row block of A with the scratch, the bias row, the clamp.
  A matrix product into a zero accumulator is, exactly, the sum over its contraction index.
-/
import proofs.«149412_g77833397338523_cont_9to1c4b_560_19_alg».proof.Proof.Gen.KernelIdeal.Skeleton
import proofs.«149412_g77833397338523_cont_9to1c4b_560_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GcnPayload

open Cert.KernelIdeal Cert.KernelIdeal.Gen Idealize.ShloMosaic Idealize.ShloMosaic.ValueIdx

/-! ## The product x·wᵀ: both operands contract their second axis -/

theorem dotT_lhs0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem dotT_lhs1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem dotT_rhs0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem dotT_rhs1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- Entry (k, j) of x·wᵀ into a zero accumulator: row k of x against row j of w. -/
theorem matmulT_apply (l : FVec Ideal S10000x128 .f32) (r : FVec Ideal S128x128 .f32) (k : Fin 10000) (j : Fin 128) :
    matmul dot_S10000x128_S128x128_S10000x128_1_1_0_0_n_n none l r (constant S10000x128 .f32 0x00000000#32) (ix2 k j)
      = ∑ d : Fin 128, l (ix2 k d) * r (ix2 j d) := by
  simp only [matmul]
  rw [Ideal.matmul_constant_zero_apply, ← Equiv.sum_comp (contrEquiv1 dot_S10000x128_S128x128_S10000x128_1_1_0_0_n_n 128 rfl rfl).symm]
  refine Finset.sum_congr rfl fun d _ => ?_
  have hd := contrEquiv1_symm_val dot_S10000x128_S128x128_S10000x128_1_1_0_0_n_n 128 rfl rfl d
  have el : dot_S10000x128_S128x128_S10000x128_1_1_0_0_n_n.lhsIdx (ix2 k j) ((contrEquiv1 dot_S10000x128_S128x128_S10000x128_1_1_0_0_n_n 128 rfl rfl).symm d) = ix2 k d := funext fun a => Fin.ext (by
    match a with
    | ⟨0, _⟩ => exact dotT_lhs0 _ _
    | ⟨1, _⟩ => exact (dotT_lhs1 _ _).trans hd)
  have er : dot_S10000x128_S128x128_S10000x128_1_1_0_0_n_n.rhsIdx (ix2 k j) ((contrEquiv1 dot_S10000x128_S128x128_S10000x128_1_1_0_0_n_n 128 rfl rfl).symm d) = ix2 j d := funext fun a => Fin.ext (by
    match a with
    | ⟨0, _⟩ => exact dotT_rhs0 _ _
    | ⟨1, _⟩ => exact (dotT_rhs1 _ _).trans hd)
  rw [el, er]

/-! ## The plain product of a row block of A with the scratch -/

theorem dotN_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem dotN_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem dotN_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem dotN_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, c) of the plain product into a zero accumulator: row p of the left against column c of the right. -/
theorem matmulN_apply (l : FVec Ideal S400x10000 .f32) (r : FVec Ideal S10000x128 .f32) (p : Fin 400) (c : Fin 128) :
    matmul dot_S400x10000_S10000x128_S400x128_1_0_0_1_n_n none l r (constant S400x128 .f32 0x00000000#32) (ix2 p c)
      = ∑ k : Fin 10000, l (ix2 p k) * r (ix2 k c) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p c) ((contrEquiv1 dot_S400x10000_S10000x128_S400x128_1_0_0_1_n_n 10000 rfl rfl).symm k) = ix2 p k := funext fun a => Fin.ext (by
    match a with
    | ⟨0, _⟩ => exact dotN_lhs0 _ _
    | ⟨1, _⟩ => exact (dotN_lhs1 _ _).trans hk)
  have er : dot_S400x10000_S10000x128_S400x128_1_0_0_1_n_n.rhsIdx (ix2 p c) ((contrEquiv1 dot_S400x10000_S10000x128_S400x128_1_0_0_1_n_n 10000 rfl rfl).symm k) = ix2 k c := funext fun a => Fin.ext (by
    match a with
    | ⟨0, _⟩ => exact (dotN_rhs0 _ _).trans hk
    | ⟨1, _⟩ => exact dotN_rhs1 _ _)
  rw [el, er]

/-! ## The two stored values -/

/-- The clamp's zero is the extended real 0. -/
theorem zero_word : (Scalar.ofBits .f32 0x00000000#32 : Ideal .f32) = 0 := Ideal.ofBits_zero_f32

/-- The hidden activation, as the body computes it, at (k, j). -/
theorem hidden_act_apply (x1 : FVec Ideal S10000x128 .f32) (x2 : FVec Ideal S128x128 .f32) (x3 : FVec Ideal S128 .f32) (k : Fin 10000) (j : Fin 128) :
    maximumf (F := Ideal) (addf (matmul dot_S10000x128_S128x128_S10000x128_1_1_0_0_n_n none x1 x2 (constant S10000x128 .f32 0x00000000#32))
        (broadcastTo S10000x128 (shapeCast S1x128 x3 shapeCasts_S128_S1x128) broadcasts_S1x128_S10000x128))
      (broadcast S10000x128 (Scalar.ofBits (F := Ideal) .f32 0x00000000#32)) (ix2 k j)
      = Cert.GcnSpec.act x1 x2 x3 k j := by
  unfold Cert.GcnSpec.act
  rw [maximumf_apply, addf_apply, matmulT_apply, broadcastTo_1b_ab_apply, shapeCast_a_1a_apply, broadcast_apply, zero_word]

/-- The value stored into the scratch, at (k, c): the folded factor. -/
theorem pay1_apply (x1 : Vec Ideal S10000x128 .f32) (x2 : Vec Ideal S128x128 .f32) (x3 : Vec Ideal S128 .f32) (x4 : Vec Ideal S128x128 .f32)
    (k : Fin 10000) (c : Fin 128) :
    k0_pay1 (F := Ideal) x1 x2 x3 x4 (ix2 k c) = Cert.GcnSpec.folded x1 x2 x3 x4 k c := by
  unfold k0_pay1 Cert.GcnSpec.folded
  rw [shapeCast_self]
  refine (matmulT_apply _ _ k c).trans (Finset.sum_congr rfl fun j _ => ?_)
  exact congrArg (· * x4 (ix2 c j)) (hidden_act_apply x1 x2 x3 k j)

/-- The value stored into the output block, at (0, p, c). -/
theorem pay2_apply (x0 : Vec Ideal S400x10000 .f32) (xs : Vec Ideal S10000x128 .f32) (x5 : Vec Ideal S128 .f32)
    (u : Fin 1) (p : Fin 400) (c : Fin 128) :
    k0_pay2 (F := Ideal) x0 xs x5 (ix3 u p c) = max ((∑ k : Fin 10000, x0 (ix2 p k) * xs (ix2 k c)) + x5 (ix1 c)) 0 := by
  unfold k0_pay2
  rw [shapeCast_ab_1ab_apply, maximumf_apply, addf_apply, matmulN_apply, broadcastTo_1b_ab_apply, shapeCast_a_1a_apply, broadcast_apply, zero_word]

end Cert.GcnPayload

end
-- ==== Proof.Blocks.lean ====
/-
  From blocks to the array.

  The grid has 25 points.  Point t reads rows 400·t … 400·t+399 of A (all 10000 columns) and writes rows
  400·t … 400·t+399 of the result; the five small operands are read whole at every point.  So the scratch's
  `hidden` is the folded factor h2 of the WHOLE arrays AX, Wr, b_r, W, and entry (0, q, c) of what point t
  writes back is entry (400·t + q, c) of the kernel's bracketing of A·r·Wᵀ plus bias, clamped.  Every row
  p of the result lies in exactly the block of point p / 400, so after the run the whole result array is
  that function of the argument arrays.
-/
import proofs.«149412_g77833397338523_cont_9to1c4b_560_19_alg».proof.Proof.Gen.KernelIdeal.Value
import proofs.«149412_g77833397338523_cont_9to1c4b_560_19_alg».proof.Proof.Sweep
import proofs.«149412_g77833397338523_cont_9to1c4b_560_19_alg».proof.Proof.Payload

noncomputable section

open Idealize.ShloMosaic Idealize.ShloMosaic.TcCoe Idealize.SL.Sem
open Idealize.ShloMosaic.Pipeline (Dat)

namespace Cert.GcnBlocks

open Cert.KernelIdeal Cert.KernelIdeal.Gen Idealize.ShloMosaic.ValueIdx

variable (m : (ℓ : Loc nD τ sig) → Buf (Elt Ideal) ℓ) (ρ : Dev nD → PrngReg)

/-- The printed index maps at a grid point: A's row block and the result's row block move with the point,
    everything else stays at block 0. -/
structure IdxFacts (t : Fin cfg0.N) : Prop where
  a0 : win0_0.index t (0 : Fin 2) = t.val
  a1 : win0_0.index t (1 : Fin 2) = 0
  b0 : win0_1.index t (0 : Fin 2) = 0
  b1 : win0_1.index t (1 : Fin 2) = 0
  c0 : win0_2.index t (0 : Fin 2) = 0
  c1 : win0_2.index t (1 : Fin 2) = 0
  d0 : win0_3.index t (0 : Fin 1) = 0
  e0 : win0_4.index t (0 : Fin 2) = 0
  e1 : win0_4.index t (1 : Fin 2) = 0
  f0 : win0_5.index t (0 : Fin 1) = 0
  o0 : win0_6.index t (0 : Fin 3) = 0
  o1 : win0_6.index t (1 : Fin 3) = t.val
  o2 : win0_6.index t (2 : Fin 3) = 0

/-- Decided once, over the 25 points. -/
theorem idx_facts_raw : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = 0 ∧ win0_6.index t (1 : Fin 3) = t.val ∧ win0_6.index t (2 : Fin 3) = 0 :=
  (by decide +kernel : ∀ t : Fin grid0.N, _)

theorem idx_facts (t : Fin cfg0.N) : IdxFacts t := by
  obtain ⟨h1, h2, h3, h4, h5, h6, h7, h8, h9, h10, h11, h12, h13⟩ := idx_facts_raw t
  exact ⟨h1, h2, h3, h4, h5, h6, h7, h8, h9, h10, h11, h12, h13⟩

/-! ## The small operands' blocks are the whole arrays -/

theorem whole1 (c : Dev nD) (t : Fin cfg0.N) : (iblk m c 1 t : Vec Ideal S10000x128 .f32) = V m c main_arg1 := by
  funext y
  unfold iblk
  rw [View.read_apply]
  show V m c main_arg1 (((cfg0.win 1).blk t).view.emb y) = V m c main_arg1 y
  refine congrArg _ (funext fun a => Fin.ext ?_)
  match a with
  | ⟨0, _⟩ => show win0_1.index t (0 : Fin 2) * 10000 + 1 * (y 0).val = (y 0).val; rw [(idx_facts t).b0]; omega
  | ⟨1, _⟩ => show win0_1.index t (1 : Fin 2) * 128 + 1 * (y 1).val = (y 1).val; rw [(idx_facts t).b1]; omega

theorem whole2 (c : Dev nD) (t : Fin cfg0.N) : (iblk m c 2 t : Vec Ideal S128x128 .f32) = V m c main_arg2 := by
  funext y
  unfold iblk
  rw [View.read_apply]
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; rw [(idx_facts t).c0]; omega
  | ⟨1, _⟩ => show win0_2.index t (1 : Fin 2) * 128 + 1 * (y 1).val = (y 1).val; rw [(idx_facts t).c1]; omega

theorem whole3 (c : Dev nD) (t : Fin cfg0.N) : (iblk m c 3 t : Vec Ideal S128 .f32) = V m c main_arg3 := by
  funext y
  unfold iblk
  rw [View.read_apply]
  show V m c main_arg3 (((cfg0.win 3).blk t).view.emb y) = V m c main_arg3 y
  refine congrArg _ (funext fun a => Fin.ext ?_)
  match a with
  | ⟨0, _⟩ => show win0_3.index t (0 : Fin 1) * 128 + 1 * (y 0).val = (y 0).val; rw [(idx_facts t).d0]; omega

theorem whole4 (c : Dev nD) (t : Fin cfg0.N) : (iblk m c 4 t : Vec Ideal S128x128 .f32) = V m c main_arg4 := by
  funext y
  unfold iblk
  rw [View.read_apply]
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; rw [(idx_facts t).e0]; omega
  | ⟨1, _⟩ => show win0_4.index t (1 : Fin 2) * 128 + 1 * (y 1).val = (y 1).val; rw [(idx_facts t).e1]; omega

theorem whole5 (c : Dev nD) (t : Fin cfg0.N) : (iblk m c 5 t : Vec Ideal S128 .f32) = V m c main_arg5 := by
  funext y
  unfold iblk
  rw [View.read_apply]
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; rw [(idx_facts t).f0]; omega

/-! ## A's block at point t is rows 400·t … 400·t + 399 -/

theorem rows_of_A (c : Dev nD) (t : Fin cfg0.N) (q : Fin 400) (k : Fin 10000) (hq : t.val * 400 + q.val < 10000) :
    (iblk m c 0 t : Vec Ideal S400x10000 .f32) (ix2 q k) = V m c main_arg0 (ix2 (⟨t.val * 400 + q.val, hq⟩ : Fin 10000) k) := by
  unfold iblk
  rw [View.read_apply]
  show V m c main_arg0 (((cfg0.win 0).blk t).view.emb (ix2 q k)) = _
  refine congrArg _ (funext fun a => Fin.ext ?_)
  match a with
  | ⟨0, _⟩ => show win0_0.index t (0 : Fin 2) * 400 + 1 * q.val = t.val * 400 + q.val; rw [(idx_facts t).a0]; omega
  | ⟨1, _⟩ => show win0_0.index t (1 : Fin 2) * 10000 + 1 * k.val = k.val; rw [(idx_facts t).a1]; omega

/-! ## The scratch's contents, at an index: the folded factor of the whole arrays -/

theorem hidden_apply (c : Dev nD) (k : Fin 10000) (j : Fin 128) :
    Cert.GcnSweep.hidden m c (ix2 k j)
      = Cert.GcnSpec.folded (V m c main_arg1) (V m c main_arg2) (V m c main_arg3) (V m c main_arg4) k j := by
  unfold Cert.GcnSweep.hidden
  rw [whole1, whole2, whole3, whole4]
  exact Cert.GcnPayload.pay1_apply _ _ _ _ k j

/-! ## The result array -/

/-- Entry (0, p, c) of the result: the kernel's bracketing, of the argument arrays as the region finds them. -/
def resultFn (c : Dev nD) : S1x10000x128.Idx → EReal := fun i =>
  Cert.GcnSpec.outFolded (V m c main_arg0) (V m c main_arg1) (V m c main_arg2) (V m c main_arg3) (V m c main_arg4) (V m c main_arg5)
    ⟨(i 1).val, (i 1).isLt⟩ ⟨(i 2).val, (i 2).isLt⟩

abbrev result (c : Dev nD) : Buf (Elt Ideal) ((c : Thread nD τ).loc main_v0) := resultFn m c

/-- Entry y of the block point t stores is entry i of the result, when i is y shifted down by 400·t rows. -/
theorem entry_eq (c : Dev nD) (t : Fin cfg0.N) (y : S1x400x128.Idx) (i : S1x10000x128.Idx)
    (h1 : (i 1).val = t.val * 400 + (y 1).val) (h2 : (i 2).val = (y 2).val) :
    k0_pay2 (F := Ideal) (iblk m c 0 t) (Cert.GcnSweep.hidden m c) (iblk m c 5 t) y = resultFn m c i := by
  have hy1 : (y 1).val < 400 := (y 1).isLt
  have hy2 : (y 2).val < 128 := (y 2).isLt
  have hi1 : (i 1).val < 10000 := (i 1).isLt
  have e : y = ix3 (⟨(y 0).val, (y 0).isLt⟩ : Fin 1) (⟨(y 1).val, hy1⟩ : Fin 400) (⟨(y 2).val, hy2⟩ : Fin 128) :=
    funext fun a => by
      match a with
      | ⟨0, _⟩ => rfl
      | ⟨1, _⟩ => rfl
      | ⟨2, _⟩ => rfl
  have hp : (⟨(i 1).val, (i 1).isLt⟩ : Fin 10000) = ⟨t.val * 400 + (y 1).val, by omega⟩ := Fin.ext h1
  have hc : (⟨(i 2).val, (i 2).isLt⟩ : Fin 128) = ⟨(y 2).val, hy2⟩ := Fin.ext h2
  refine (congrArg (k0_pay2 (F := Ideal) (iblk m c 0 t) (Cert.GcnSweep.hidden m c) (iblk m c 5 t)) e).trans ?_
  refine (Cert.GcnPayload.pay2_apply _ _ _ _ _ _).trans ?_
  unfold resultFn Cert.GcnSpec.outFolded
  rw [hp, hc, whole5]
  refine congrArg (fun s => max (s + V m c main_arg5 (ix1 (⟨(y 2).val, hy2⟩ : Fin 128))) 0) (Finset.sum_congr rfl fun k _ => ?_)
  rw [rows_of_A m c t ⟨(y 1).val, hy1⟩ k (by omega), hidden_apply]

/-- WHAT POINT t WRITES BACK is block t of the result. -/
theorem flushed_eq (c : Dev nD) (t : Fin cfg0.N) :
    (dats m 0 c).flushed 6 t = ((cfg0.win 6).blk t).view.read (Elt Ideal) (result m c) := by
  rw [Cert.KernelIdeal.Value.flushed6, Cert.GcnSweep.out_at]
  funext y
  rw [View.read_apply]
  refine entry_eq m c t y _ ?_ ?_
  · show win0_6.index t (1 : Fin 3) * 400 + 1 * (y 1).val = t.val * 400 + (y 1).val
    rw [(idx_facts t).o1]; omega
  · show win0_6.index t (2 : Fin 3) * 128 + 1 * (y 2).val = (y 2).val
    rw [(idx_facts t).o2]; omega

/-- An index of the result is in point t's block iff each coordinate is in the block's range on its axis. -/
theorem mem_blk (t : Fin cfg0.N) (i : S1x10000x128.Idx) :
    i ∈ ((cfg0.win 6).blk t).view.set ↔ ∀ a : Fin 3, win0_6.index t a * S1x400x128.size a ≤ (i a).val ∧ (i a).val < win0_6.index t a * S1x400x128.size a + S1x400x128.size a := by
  show i ∈ ((View.whole main_v0).slice (win0_6.rect t)).set ↔ _
  rw [View.set_slice_whole, Rect.mem_set_unit]
  exact Iff.rfl

/-- Row p of the result lies in the block of point p / 400. -/
theorem cover (i : S1x10000x128.Idx) :
    ∃ t : Fin cfg0.N, (cfg0.win 6).flush t = true ∧ i ∈ ((cfg0.win 6).blk t).view.set := by
  have hN : cfg0.N = 25 := N_0
  have h0 : (i 0).val < 1 := (i 0).isLt
  have h1 : (i 1).val < 10000 := (i 1).isLt
  have h2 : (i 2).val < 128 := (i 2).isLt
  have ht : (i 1).val / 400 < cfg0.N := by omega
  refine ⟨⟨(i 1).val / 400, ht⟩, flush0_6 _, ?_⟩
  rw [mem_blk]
  intro a
  match a with
  | ⟨0, _⟩ =>
    show win0_6.index ⟨(i 1).val / 400, ht⟩ (0 : Fin 3) * 1 ≤ (i 0).val ∧ (i 0).val < win0_6.index ⟨(i 1).val / 400, ht⟩ (0 : Fin 3) * 1 + 1
    rw [(idx_facts ⟨(i 1).val / 400, ht⟩).o0]; omega
  | ⟨1, _⟩ =>
    show win0_6.index ⟨(i 1).val / 400, ht⟩ (1 : Fin 3) * 400 ≤ (i 1).val ∧ (i 1).val < win0_6.index ⟨(i 1).val / 400, ht⟩ (1 : Fin 3) * 400 + 400
    rw [(idx_facts ⟨(i 1).val / 400, ht⟩).o1]
    show (i 1).val / 400 * 400 ≤ (i 1).val ∧ (i 1).val < (i 1).val / 400 * 400 + 400
    omega
  | ⟨2, _⟩ =>
    show win0_6.index ⟨(i 1).val / 400, ht⟩ (2 : Fin 3) * 128 ≤ (i 2).val ∧ (i 2).val < win0_6.index ⟨(i 1).val / 400, ht⟩ (2 : Fin 3) * 128 + 128
    rw [(idx_facts ⟨(i 1).val / 400, ht⟩).o2]; omega

/-- THE RESULT ARRAY after the run. -/
theorem final (c : Dev nD) : (dats m 0 c).arrAt 6 cfg0.N = result m c :=
  (dats m 0 c).arrAt_eq_of_cover 6 (result m c) (fun t _ => flushed_eq m c t) cover

/-- The kernel's run, read: the result array at that function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.GcnBlocks

end
-- ==== Proof.RefValue.lean ====
/-
  The reference, entry by entry.

  Read one operation at a time, the reference's result at (0, p, c) is
      max(Σ_j (Σ_k A[p,k]·r[k,j])·W[c,j] + b[c], 0),   r[k,j] = max(Σ_d AX[k,d]·Wr[j,d] + b_r[j], 0):
  the two transposes turn "contract the right operand's first axis" into "row against row", the two
  broadcasts put a bias row under every row, and the last operation only adds a leading axis of extent one.
-/
import proofs.«149412_g77833397338523_cont_9to1c4b_560_19_alg».proof.Proof.Gen.ReferenceIdeal.Read
import proofs.«149412_g77833397338523_cont_9to1c4b_560_19_alg».proof.Proof.Spec

noncomputable section

namespace Cert.GcnRef

open Cert.ReferenceIdeal Cert.ReferenceIdeal.Read Idealize.ShloMosaic Idealize.ShloMosaic.ValueIdx
open Cert.GcnSpec (act outLayered)

variable (x0 : FVec Ideal S10000x10000 .f32) (x1 : FVec Ideal S10000x128 .f32) (x2 : FVec Ideal S128x128 .f32)
  (x3 : FVec Ideal S128 .f32) (x4 : FVec Ideal S128x128 .f32) (x5 : FVec Ideal S128 .f32)

/-- The clamp's zero is the extended real 0. -/
theorem zero_word : (FloatOps.ofBits (F := Ideal) .f32 0x00000000#32) = 0 := Ideal.ofBits_zero_f32

/-- The hidden activation r[k,j]: row k of AX against row j of Wr (the transpose read back), plus the bias, clamped. -/
theorem act_apply (k : Fin 10000) (j : Fin 128) : val_main_v5 (F := Ideal) x1 x2 x3 (ix2 k j) = act x1 x2 x3 k j := by
  have e1 : ∀ d : Fin 128, lidx_main_v1 (ix2 k j) d = ix2 k d := fun d => funext fun a => by
    match a with
    | ⟨0, _⟩ => rfl
    | ⟨1, _⟩ => rfl
  have e2 : ∀ d : Fin 128, idx_main_v0 (ridx_main_v1 (ix2 k j) d) = ix2 j d := fun d => funext fun a => by
    match a with
    | ⟨0, _⟩ => rfl
    | ⟨1, _⟩ => rfl
  have e3 : idx_main_v2 (idx_main_v3 (ix2 k j)) = ix1 j := funext fun a => by
    match a with
    | ⟨0, _⟩ => rfl
  rw [val_main_v5_apply, val_main_v4_apply, val_main_v1_apply, val_main_v3_apply, val_main_v2_apply, val_main_call0_v0_apply,
    val_main_call0_cst_apply, e3, zero_word]
  unfold act
  refine congrArg (fun s => max (s + x3 (ix1 j)) 0) (Finset.sum_congr rfl fun d _ => ?_)
  rw [val_main_v0_apply, e1, e2]

/-- t[p,j] = Σ_k A[p,k]·r[k,j]. -/
theorem layer_apply (p : Fin 10000) (j : Fin 128) :
    val_main_v6 (F := Ideal) x0 x1 x2 x3 (ix2 p j) = ∑ k : Fin 10000, x0 (ix2 p k) * act x1 x2 x3 k j := by
  have e1 : ∀ k : Fin 10000, lidx_main_v6 (ix2 p j) k = ix2 p k := fun k => funext fun a => by
    match a with
    | ⟨0, _⟩ => rfl
    | ⟨1, _⟩ => rfl
  have e2 : ∀ k : Fin 10000, ridx_main_v6 (ix2 p j) k = ix2 k j := fun k => funext fun a => by
    match a with
    | ⟨0, _⟩ => rfl
    | ⟨1, _⟩ => rfl
  rw [val_main_v6_apply]
  refine Finset.sum_congr rfl fun k _ => ?_
  rw [e1, e2, act_apply]

/-- Σ_j t[p,j]·W[c,j]. -/
theorem project_apply (p : Fin 10000) (c : Fin 128) :
    val_main_v8 (F := Ideal) x0 x1 x2 x3 x4 (ix2 p c)
      = ∑ j : Fin 128, (∑ k : Fin 10000, x0 (ix2 p k) * act x1 x2 x3 k j) * x4 (ix2 c j) := by
  have e1 : ∀ j : Fin 128, lidx_main_v8 (ix2 p c) j = ix2 p j := fun j => funext fun a => by
    match a with
    | ⟨0, _⟩ => rfl
    | ⟨1, _⟩ => rfl
  have e2 : ∀ j : Fin 128, idx_main_v7 (ridx_main_v8 (ix2 p c) j) = ix2 c j := fun j => funext fun a => by
    match a with
    | ⟨0, _⟩ => rfl
    | ⟨1, _⟩ => rfl
  rw [val_main_v8_apply]
  refine Finset.sum_congr rfl fun j _ => ?_
  rw [e1, layer_apply, val_main_v7_apply, e2]

/-- The result before the leading unit axis is added. -/
theorem out_apply (p : Fin 10000) (c : Fin 128) :
    val_main_v12 (F := Ideal) x0 x1 x2 x3 x4 x5 (ix2 p c) = outLayered x0 x1 x2 x3 x4 x5 p c := by
  have e3 : idx_main_v9 (idx_main_v10 (ix2 p c)) = ix1 c := funext fun a => by
    match a with
    | ⟨0, _⟩ => rfl
  rw [val_main_v12_apply, val_main_v11_apply, project_apply, val_main_v10_apply, val_main_v9_apply, val_main_call1_v0_apply,
    val_main_call1_cst_apply, e3, zero_word]
  rfl

/-- THE REFERENCE'S RESULT at (0, p, c). -/
theorem result_apply (i : S1x10000x128.Idx) :
    val_main_v13 (F := Ideal) x0 x1 x2 x3 x4 x5 i
      = outLayered x0 x1 x2 x3 x4 x5 ⟨(i 1).val, (i 1).isLt⟩ ⟨(i 2).val, (i 2).isLt⟩ := by
  have e : idx_main_v13 i = ix2 (⟨(i 1).val, (i 1).isLt⟩ : Fin 10000) (⟨(i 2).val, (i 2).isLt⟩ : Fin 128) := funext fun a => by
    match a with
    | ⟨0, _⟩ => rfl
    | ⟨1, _⟩ => rfl
  rw [val_main_v13_apply, e, out_apply]

end Cert.GcnRef

end
-- ==== Proof.Finite.lean ====
/-
  What the precondition says: every entry of every argument is a real number.

  The precondition is the conjunction, over the six arguments, of "all entries x satisfy |x| < +inf".
  Over the extended reals |x| is max(x, −x), which is +inf exactly at the two infinities; so an entry that
  passes is a real.  A conjunction that holds gives each conjunct, and a reduction by "and" over a whole
  array that comes out true had a true at every index.
-/
import proofs.«149412_g77833397338523_cont_9to1c4b_560_19_alg».proof.Pre_finite_inputs
import proofs.«149412_g77833397338523_cont_9to1c4b_560_19_alg».proof.Proof.Spec
import Idealize.ShloMosaic.Lib.ReduceAll
import Idealize.ShloMosaic.Lib.ValueIdx
import Idealize.ShloMosaic.PureOps.Ideal.Laws

noncomputable section

namespace Cert.GcnFinite

open Idealize.ShloMosaic Cert.Pre_finite_inputs
open Cert.GcnSpec (AllReal)

variable [Cert.Pre_finite_inputs.Facts]
open Cert.Pre_finite_inputs.Facts

/-- The word 0x7F800000 is +inf. -/
theorem inf_word : Ideal.ofBits .f32 0x7F800000#32 = (⊤ : EReal) := by simp [Ideal.ofBits, Ideal.ieee]

/-- An extended real whose absolute value is below +inf is a real number. -/
theorem real_of_abs_lt (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  have hlt : max x (-x) < ⊤ := by
    by_contra hn
    unfold Ideal.cmp at h'
    simp [hn] at h'
  induction x using EReal.rec with
  | bot => simp at hlt
  | top => simp at hlt
  | coe r => exact ⟨r, rfl⟩

/-- The scalar shape has one index. -/
instance : Subsingleton S_.Idx := ⟨fun a b => funext fun d => d.elim0⟩

/-- One conjunct read back: "all |x| < +inf" over an array of any shape gives a real at every index. -/
theorem allReal_of_all {S : Shape} {axes : List (Fin S.rank)} (x : FVec Ideal S .f32) (bc : S_.BroadcastsInDim S (![] : Fin 0 → Fin S.rank))
    (hr : S.ReducesTo axes S_)
    (h : Host.reduce IntOp.andi (cmpf .olt (Host.absf x) (broadcastInDim S ![] bc (constant (F := Ideal) S_ .f32 0x7F800000#32)))
      (constantI S_ 1 1#1) hr h_S_ ValueIdx.ix0 = 1#1) :
    AllReal x := fun i =>
  real_of_abs_lt (x i) (Host.reduce_andi_all _ _ hr h_S_ ValueIdx.ix0 h i)

/-- THE PRECONDITION, READ: all six arguments are arrays of reals. -/
theorem allReal_of_pre (a0 : FVec Ideal S10000x10000 .f32) (a1 : FVec Ideal S10000x128 .f32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    AllReal a0 ∧ AllReal a1 ∧ AllReal a2 ∧ AllReal a3 ∧ AllReal a4 ∧ AllReal a5 := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨allReal_of_all a0 _ _ h0', allReal_of_all a1 _ _ h1, allReal_of_all a2 _ _ h2, allReal_of_all a3 _ _ h3,
    allReal_of_all a4 _ _ h4, allReal_of_all a5 _ _ h5⟩

end Cert.GcnFinite

end
-- ==== Proof.lean ====
/-
  A two-layer graph convolution,  out = relu((A · relu(AX · Wrᵀ + b_r)) · Wᵀ + b)  with a leading axis of
  extent one, computed two ways.

  The kernel uses that the second relu comes last: it folds the second weight into the hidden layer,
  h2 = relu(AX · Wrᵀ + b_r) · Wᵀ, once, at the first of 25 grid points, keeps h2 in a scratch buffer, and at
  every point multiplies a block of 400 rows of A by it, adds b and clamps at zero.  The reference multiplies
  in the order written.  Entry by entry the two are the two bracketings of the triple product A · r · Wᵀ,
      Σ_k A[p,k] · (Σ_j r[k,j] · W[c,j])   and   Σ_j (Σ_k A[p,k] · r[k,j]) · W[c,j],
  equal for real entries (distribute, swap the two finite sums); over the extended reals that step needs the
  entries to be real, and the precondition — every input finite — is exactly that.

  The parts: what one run of the body leaves (Pieces), that the scratch holds h2 after every point and so
  every output block is A's row block against h2 (Sweep), both stored values read at an index (Payload),
  the 25 blocks assembled into the whole result (Blocks), the reference read at an index (RefValue), the
  precondition read as "all entries real" (Finite), the two entry functions and their equality (Spec, Law).
  The three frames are the generated runs; the idealization rewrote nothing, so its conjunct is trivial.
-/
import proofs.«149412_g77833397338523_cont_9to1c4b_560_19_alg».proof.Defs
import proofs.«149412_g77833397338523_cont_9to1c4b_560_19_alg».proof.Proof.Gen.Kernel
import proofs.«149412_g77833397338523_cont_9to1c4b_560_19_alg».proof.Proof.Gen.Kernel.Skeleton
import proofs.«149412_g77833397338523_cont_9to1c4b_560_19_alg».proof.Proof.Gen.Kernel.Launch
import proofs.«149412_g77833397338523_cont_9to1c4b_560_19_alg».proof.Proof.Gen.Kernel.Points
import proofs.«149412_g77833397338523_cont_9to1c4b_560_19_alg».proof.Proof.Gen.Kernel.Frame
import proofs.«149412_g77833397338523_cont_9to1c4b_560_19_alg».proof.Proof.Gen.KernelIdeal
import proofs.«149412_g77833397338523_cont_9to1c4b_560_19_alg».proof.Proof.Gen.KernelIdeal.Skeleton
import proofs.«149412_g77833397338523_cont_9to1c4b_560_19_alg».proof.Proof.Gen.KernelIdeal.Launch
import proofs.«149412_g77833397338523_cont_9to1c4b_560_19_alg».proof.Proof.Gen.KernelIdeal.Points
import proofs.«149412_g77833397338523_cont_9to1c4b_560_19_alg».proof.Proof.Gen.KernelIdeal.Frame
import proofs.«149412_g77833397338523_cont_9to1c4b_560_19_alg».proof.Proof.Gen.ReferenceIdeal
import proofs.«149412_g77833397338523_cont_9to1c4b_560_19_alg».proof.Proof.Gen.KernelIdeal.Value
import proofs.«149412_g77833397338523_cont_9to1c4b_560_19_alg».proof.Proof.Gen.ReferenceIdeal.Run
import proofs.«149412_g77833397338523_cont_9to1c4b_560_19_alg».proof.Proof.Gen.ReferenceIdeal.Read
import proofs.«149412_g77833397338523_cont_9to1c4b_560_19_alg».proof.Proof.Gen.Pre_finite_inputs
import proofs.«149412_g77833397338523_cont_9to1c4b_560_19_alg».proof.Proof.Blocks
import proofs.«149412_g77833397338523_cont_9to1c4b_560_19_alg».proof.Proof.RefValue
import proofs.«149412_g77833397338523_cont_9to1c4b_560_19_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the six arguments, both programs end with the same
    result: the kernel's array is the folded bracketing of the arguments, the reference's the layered one, and
    for finite arguments the two are equal entry by entry. -/
theorem algebraic : Cert.algebraic_KernelIdeal_ReferenceIdeal := by
  intro m ρ m' ρ' hpre hagree
  refine ⟨fun c => Cert.GcnBlocks.result m c, Cert.GcnBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2]
  obtain ⟨hA, hAX, hWr, hbr, hW, -⟩ := Cert.GcnFinite.allReal_of_pre _ _ _ _ _ _ (hpre c)
  funext i
  rw [Cert.GcnRef.result_apply]
  exact (Cert.GcnSpec.outFolded_eq_outLayered _ hA hAX hWr hbr hW _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
